-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : IVec S4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096 : Shape := ⟨1, ![4096]⟩
abbrev S4096x1 : Shape := ⟨2, ![4096, 1]⟩
abbrev S256x4096 : Shape := ⟨2, ![256, 4096]⟩
abbrev S256x1 : Shape := ⟨2, ![256, 1]⟩
abbrev S256 : Shape := ⟨1, ![256]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .i32⟩
  | .hbm, ⟨3, _⟩ => ⟨S4096x1, .i32⟩
  | .hbm, ⟨4, _⟩ => ⟨S4096x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .i32⟩
  | .local _ .vmem, ⟨5, _⟩ => ⟨S256x1, .i32⟩
  | .local _ .vmem, ⟨6, _⟩ => ⟨S256x1, .f32⟩
  | .local _ .vmem, ⟨7, _⟩ => ⟨S256x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096_S4096x1 : S4096.ShapeCasts S4096x1
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .i32 = 32 ∨ (Rect.block (s := S4096x1) S256x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .i32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .i1⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .i1⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_cst_8 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_10 : Ref sig .tc := ⟨.hbm, 44, rfl⟩
abbrev main_call1_v0 : Ref sig .tc := ⟨.hbm, 45, rfl⟩
abbrev main_call1_v1 : Ref sig .tc := ⟨.hbm, 46, rfl⟩
abbrev main_v28 : Ref sig .tc := ⟨.hbm, 47, rfl⟩
abbrev main_c : Ref sig .tc := ⟨.hbm, 48, rfl⟩
abbrev main_v29 : Ref sig .tc := ⟨.hbm, 49, rfl⟩
abbrev main_v30 : Ref sig .tc := ⟨.hbm, 50, rfl⟩
abbrev main_cst_11 : Ref sig .tc := ⟨.hbm, 51, rfl⟩
abbrev main_v31 : Ref sig .tc := ⟨.hbm, 52, rfl⟩
abbrev main_v32 : Ref sig .tc := ⟨.hbm, 53, rfl⟩
abbrev main_cst_12 : Ref sig .tc := ⟨.hbm, 54, rfl⟩
abbrev main_v33 : Ref sig .tc := ⟨.hbm, 55, rfl⟩
abbrev main_v34 : Ref sig .tc := ⟨.hbm, 56, rfl⟩
abbrev main_cst_13 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_14 : Ref sig .tc := ⟨.hbm, 61, rfl⟩
abbrev main_v38 : Ref sig .tc := ⟨.hbm, 62, rfl⟩
abbrev main_cst_15 : Ref sig .tc := ⟨.hbm, 63, rfl⟩
abbrev main_v39 : Ref sig .tc := ⟨.hbm, 64, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.PearsonLossSpec.lean ====
/-
  THE FUNCTION both programs compute, on the extended reals. For two `4096 × 4096` arrays `x`, `y` and a flat array of
  `4096` integer labels, row `r` has the five sums over its `4096` entries
      s₁ = Σ x,  s₂ = Σ y,  q₁ = Σ x²,  q₂ = Σ y²,  p = Σ x·y,
  from which Pearson's correlation of the two rows is, with `n = 4096`,
      score = (p − s₁ s₂ / n) / √((q₁ − s₁² / n) (q₂ − s₂² / n)),
  read as `0` where the square root is `0` (the divisor is then replaced by `1` before the division is taken, and the
  quotient discarded). The row's loss is `1 − score` where the label is `1` and `max 0 (score − 0)` otherwise, and the
  result is the mean of the `4096` losses: their sum, from `0`, divided by `4096`.
  Every operation is the ideal instance's (an exact operation of the extended reals, with the ideal instance's conventions
  at the corners of division and square root); the constants are kept as the `f32` words both programs print.
-/
import Idealize.ShloMosaic.PureOps.Ideal
import Idealize.ShloMosaic.Lib.ValueIdx

noncomputable section

open scoped BigOperators

namespace Cert.PearsonLoss

open Idealize.ShloMosaic Idealize.ShloMosaic.ValueIdx

/-- The sum of row `r` of a `4096 × 4096` array. -/
def rowSum (x : (⟨2, ![4096, 4096]⟩ : Shape).Idx → EReal) (r : Fin 4096) : EReal :=
  ∑ k : Fin 4096, x (ix2 r k)

/-- `a − s·t / n`, `n` the word of `4096.0`: a sum of products less the product of the sums over the count. -/
def centred (a s t : EReal) : EReal :=
  a - Ideal.div (s * t) (Ideal.ofBits .f32 0x45800000#32)

/-- The square root under the correlation: `√((q₁ − s₁²/n)(q₂ − s₂²/n))`. -/
def spread (s1 s2 q1 q2 : EReal) : EReal :=
  Ideal.sqrt (centred q1 s1 s1 * centred q2 s2 s2)

/-- The correlation from the five sums: `0` where the spread is `0`, else the centred cross sum over the spread. -/
def score (s1 s2 q1 q2 p : EReal) : EReal :=
  Scalar.select (Ideal.cmp .oeq (spread s1 s2 q1 q2) (Ideal.ofBits .f32 0x00000000#32))
    (Ideal.ofBits .f32 0x00000000#32)
    (Ideal.div (centred p s1 s2)
      (Scalar.select (Ideal.cmp .oeq (spread s1 s2 q1 q2) (Ideal.ofBits .f32 0x00000000#32))
        (Ideal.ofBits .f32 0x3F800000#32) (spread s1 s2 q1 q2)))

/-- The loss of a score under a label: `1 − score` at label `1`, else `max 0 (score − 0)`. -/
def hinge (sc : EReal) (label : BitVec 32) : EReal :=
  Scalar.select (IntOp.cmpi .eq label 1#32) (Ideal.ofBits .f32 0x3F800000#32 - sc)
    (max (Ideal.ofBits .f32 0x00000000#32) (sc - Ideal.ofBits .f32 0x00000000#32))

/-- Row `r`'s correlation, from its five sums. -/
def rowScore (x y : (⟨2, ![4096, 4096]⟩ : Shape).Idx → EReal) (r : Fin 4096) : EReal :=
  score (rowSum x r) (rowSum y r) (rowSum (fun i => x i * x i) r) (rowSum (fun i => y i * y i) r)
    (rowSum (fun i => x i * y i) r)

/-- Row `r`'s loss. -/
def rowLoss (x y : (⟨2, ![4096, 4096]⟩ : Shape).Idx → EReal) (labels : (⟨1, ![4096]⟩ : Shape).Idx → BitVec 32)
    (r : Fin 4096) : EReal :=
  hinge (rowScore x y r) (labels (ix1 r))

/-- The mean of the rows' losses. -/
def meanLoss (x y : (⟨2, ![4096, 4096]⟩ : Shape).Idx → EReal) (labels : (⟨1, ![4096]⟩ : Shape).Idx → BitVec 32) : EReal :=
  Ideal.div (Ideal.ofBits .f32 0x00000000#32 + ∑ r : Fin 4096, rowLoss x y labels r) (Ideal.ofBits .f32 0x45800000#32)

end Cert.PearsonLoss

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.ReferenceLoss.lean ====
/-
  THE REFERENCE computes `meanLoss`. Its host program is the specification's formula operation by operation: five sums
  along the last axis (each from the zero word, which denotes `0`), the same centred products and quotients by the word of
  `4096.0`, the square root, the two selects on "the square root is `0`", the select on "the label is `1`", and the mean as
  a sum from `0` over the flat array of `4096` losses, divided by `4096.0`. Reading each stage at an index
  turns the array program into the scalar one.
-/
import proofs.«153744_j59545426591916_1_alg».proof.Proof.Gen.ReferenceIdeal.Read
import proofs.«153744_j59545426591916_1_alg».proof.Proof.PearsonLossSpec
import proofs.«153744_j59545426591916_1_alg».proof.Proof.LibKeepdimsColumn
import Idealize.ShloMosaic.PureOps.Ideal.Laws

noncomputable section

open scoped BigOperators

namespace Cert.ReferenceIdeal.Loss

open Cert.ReferenceIdeal Cert.ReferenceIdeal.Gen Cert.ReferenceIdeal.Read Cert.PearsonLoss Cert.LibKeepdims
open Idealize.ShloMosaic Idealize.ShloMosaic.ValueIdx

/-- A sum from the zero word over the entries of row `r`, however the entries' indices are spelt, is the row's sum. -/
theorem rowSum_of (y : S4096x4096.Idx → EReal) (r : Fin 4096) (f : Fin 4096 → S4096x4096.Idx) (hf : ∀ k, f k = ix2 r k) :
    Ideal.ofBits .f32 0x00000000#32 + ∑ k : Fin 4096, y (f k) = rowSum y r := by
  rw [Ideal.ofBits_zero_f32, zero_add]
  exact Finset.sum_congr rfl fun k _ => congrArg y (hf k)

/-- The index a host sum along the last axis reads at row `r` and position `k` is `(r, k)`. -/
theorem sumIdx (r k : Fin 4096) : idx_main_v0 (ix1 r) k = ix2 r k :=
  funext fun a => Fin.ext (by match a with | ⟨0, _⟩ => rfl | ⟨1, _⟩ => rfl)

variable (x0 x1 : (⟨S4096x4096, .f32⟩ : BufTy).Contents (Elt Ideal)) (x2 : (⟨S4096, .i32⟩ : BufTy).Contents (Elt Ideal))

/-- The five stages that sum along the last axis, at row `r`. -/
theorem sum_x (r : Fin 4096) : val_main_v0 (F := Ideal) x0 (ix1 r) = rowSum x0 r :=
  (val_main_v0_apply x0 (ix1 r)).trans (rowSum_of x0 r (fun k => idx_main_v0 (ix1 r) k) (sumIdx r))
theorem sum_y (r : Fin 4096) : val_main_v1 (F := Ideal) x1 (ix1 r) = rowSum x1 r :=
  (val_main_v1_apply x1 (ix1 r)).trans (rowSum_of x1 r (fun k => idx_main_v1 (ix1 r) k) (sumIdx r))
theorem sum_xx (r : Fin 4096) : val_main_v3 (F := Ideal) x0 (ix1 r) = rowSum (fun i => x0 i * x0 i) r :=
  (val_main_v3_apply x0 (ix1 r)).trans (rowSum_of (fun i => x0 i * x0 i) r (fun k => idx_main_v3 (ix1 r) k) (sumIdx r))
theorem sum_yy (r : Fin 4096) : val_main_v5 (F := Ideal) x1 (ix1 r) = rowSum (fun i => x1 i * x1 i) r :=
  (val_main_v5_apply x1 (ix1 r)).trans (rowSum_of (fun i => x1 i * x1 i) r (fun k => idx_main_v5 (ix1 r) k) (sumIdx r))
theorem sum_xy (r : Fin 4096) : val_main_v7 (F := Ideal) x0 x1 (ix1 r) = rowSum (fun i => x0 i * x1 i) r :=
  (val_main_v7_apply x0 x1 (ix1 r)).trans (rowSum_of (fun i => x0 i * x1 i) r (fun k => idx_main_v7 (ix1 r) k) (sumIdx r))

/-- The stage holding the correlations, at row `r`, is the specification's score of the row's five sums: every stage
    between is pointwise, and a scalar broadcast reads its word. -/
theorem score_eq (r : Fin 4096) : val_main_v28 (F := Ideal) x0 x1 (ix1 r) = rowScore x0 x1 r := by
  simp only [val_main_v28_apply, val_main_v26_apply, val_main_v27_apply, val_main_v24_apply, val_main_v23_apply,
    val_main_v21_apply, val_main_v20_apply, val_main_v15_apply, val_main_v19_apply, val_main_v14_apply, val_main_v18_apply,
    val_main_v12_apply, val_main_v16_apply, val_main_v11_apply, val_main_v10_apply, val_main_v8_apply,
    val_main_v9_apply, val_main_v13_apply, val_main_v17_apply, val_main_v22_apply, val_main_v25_apply,
    val_main_call0_v1_apply, val_main_call1_v1_apply]
  rw [sum_x, sum_y, sum_xx, sum_yy, sum_xy]
  rfl

/-- The stage holding the rows' losses, at row `r`, is the specification's loss of the row. -/
theorem loss_eq (r : Fin 4096) : val_main_v37 (F := Ideal) x0 x1 x2 (ix1 r) = rowLoss x0 x1 x2 r := by
  simp only [val_main_v37_apply, val_main_v30_apply, val_main_v32_apply, val_main_v36_apply, val_main_v34_apply,
    val_main_v29_apply, val_main_v31_apply, val_main_v33_apply, val_main_v35_apply]
  rw [score_eq]
  rfl

/-- The reference's result is the mean loss. -/
theorem mean_eq (i : S_.Idx) : val_main_v39 (F := Ideal) x0 x1 x2 i = meanLoss x0 x1 x2 := by
  rw [val_main_v39_apply, val_main_v38_apply, sum_idx1, Finset.sum_congr rfl (fun r _ => loss_eq x0 x1 x2 r)]
  rfl

end Cert.ReferenceIdeal.Loss

end
-- ==== Proof.BodyLoss.lean ====
/-
  THE KERNEL'S BODY computes, for each of the `256` rows of its blocks, the specification's loss of that row. The body
  sums each of `x`, `y`, `x²`, `y²`, `x·y` along the last axis of the `256 × 4096` blocks into a vector of `256`, kept as a
  `256 × 1` column; everything after that is pointwise on columns, and is the specification's scalar formula at each row.
-/
import proofs.«153744_j59545426591916_1_alg».proof.Proof.Gen.KernelIdeal.Skeleton
import proofs.«153744_j59545426591916_1_alg».proof.Proof.PearsonLossSpec
import proofs.«153744_j59545426591916_1_alg».proof.Proof.LibKeepdimsColumn
import Idealize.ShloMosaic.PureOps.Ideal.Laws

noncomputable section

open scoped BigOperators

namespace Cert.KernelIdeal.Loss

open Cert.KernelIdeal Cert.KernelIdeal.Gen Cert.PearsonLoss Cert.LibKeepdims
open Idealize.ShloMosaic Idealize.ShloMosaic.ValueIdx

/-- A block's sums along its last axis, from the zero word, kept as a column. -/
def colSum (v : FVec Ideal S256x4096 .f32) : FVec Ideal S256x1 .f32 :=
  shapeCast S256x1 (multiReduction .add [1] S256 v 0x00000000#32 reduces_S256x4096_S256 (.inl rfl) rfl) shapeCasts_S256_S256x1

/-- At row `p` of the column: the sum of the block's row `p`. -/
theorem colSum_apply (v : FVec Ideal S256x4096 .f32) (p : Fin 256) (u : Fin 1) :
    colSum v (ix2 p u) = ∑ k : Fin 4096, v (ix2 p k) := by
  unfold colSum
  refine (shapeCast_a_a1_apply _ shapeCasts_S256_S256x1 p u).trans ?_
  refine (Ideal.multiReduction_add_single v 0x00000000#32 reduces_S256x4096_S256 (.inl rfl) rfl (ix1 p)).trans ?_
  exact Finset.sum_congr rfl fun k _ =>
    congrArg v (funext fun a => Fin.ext (by match a with | ⟨0, _⟩ => rfl | ⟨1, _⟩ => rfl))

/-- THE BODY'S STORED VALUE at row `p`: the loss, under the label the third block holds there, of the score of the five sums
    of row `p` of the two float blocks. -/
theorem body_eq (x0 x1 : Vec Ideal S256x4096 .f32) (x2 : Vec Ideal S256x1 .i32) (p : Fin 256) (u : Fin 1) :
    k0_pay1 (k0_pay2 x0 x1) (k0_pay3 x2) 1#32 (ix2 p u)
      = hinge (score (∑ k : Fin 4096, x0 (ix2 p k)) (∑ k : Fin 4096, x1 (ix2 p k))
          (∑ k : Fin 4096, x0 (ix2 p k) * x0 (ix2 p k)) (∑ k : Fin 4096, x1 (ix2 p k) * x1 (ix2 p k))
          (∑ k : Fin 4096, x0 (ix2 p k) * x1 (ix2 p k))) (x2 (ix2 p u)) := by
  have h : k0_pay1 (k0_pay2 x0 x1) (k0_pay3 x2) 1#32 (ix2 p u)
      = hinge (score (colSum x0 (ix2 p u)) (colSum x1 (ix2 p u)) (colSum (mulf x0 x0) (ix2 p u))
          (colSum (mulf x1 x1) (ix2 p u)) (colSum (mulf x0 x1) (ix2 p u)))
          (shapeCast S256x1 x2 shapeCasts_S256x1_S256x1 (ix2 p u)) := rfl
  rw [h, colSum_apply, colSum_apply, colSum_apply, colSum_apply, colSum_apply, shapeCast_self]
  rfl

end Cert.KernelIdeal.Loss

end
-- ==== Proof.BlocksLoss.lean ====
/-
  FROM BLOCKS TO THE ARRAY. The grid has `16` points; point `t` stages rows `256 t … 256 t + 255` of the two float arrays
  (all `4096` columns) and of the label column, and writes back rows `256 t … 256 t + 255` of the result column. The body
  leaves in row `p` of its output block the loss of row `p` of its input blocks, that is of row `256 t + p` of the arrays:
  so what each point writes back is its block of ONE column, the column of the rows' losses, and since the `16` blocks tile
  the `4096` rows the result column ends holding exactly that.
-/
import proofs.«153744_j59545426591916_1_alg».proof.Proof.Gen.KernelIdeal.Frame
import proofs.«153744_j59545426591916_1_alg».proof.Proof.BodyLoss
import Idealize.ShloMosaic.Lib.Pipeline.Value

noncomputable section

open scoped BigOperators

namespace Cert.KernelIdeal.Loss

open Cert.KernelIdeal Cert.KernelIdeal.Gen Cert.PearsonLoss Cert.LibKeepdims
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The row an index of the result column lies in. -/
abbrev rowOf (i : S4096x1.Idx) : Fin 4096 := ⟨(i 0).val, (i 0).isLt⟩

/-- THE COLUMN OF THE ROWS' LOSSES: at each index, the loss of that row's correlation under the label at that index. -/
def lossColumn (X Y : S4096x4096.Idx → EReal) (L : S4096x1.Idx → BitVec 32) : S4096x1.Idx → EReal :=
  fun i => hinge (rowScore X Y (rowOf i)) (L i)

/-- One element the body stores, against one element of the column: if row `p` of the two float blocks is row `rowOf i` of
    the arrays and the label block holds at `(p, u)` the label at `i`, the stored value at `(p, u)` is the column at `i`. -/
theorem point_eq (X Y : S4096x4096.Idx → EReal) (L : S4096x1.Idx → BitVec 32)
    (x0 x1 : Vec Ideal S256x4096 .f32) (x2 : Vec Ideal S256x1 .i32) (p : Fin 256) (u : Fin 1) (i : S4096x1.Idx)
    (h0 : ∀ k : Fin 4096, x0 (ix2 p k) = X (ix2 (rowOf i) k))
    (h1 : ∀ k : Fin 4096, x1 (ix2 p k) = Y (ix2 (rowOf i) k))
    (h2 : x2 (ix2 p u) = L i) :
    k0_pay1 (k0_pay2 x0 x1) (k0_pay3 x2) 1#32 (ix2 p u) = lossColumn X Y L i := by
  rw [body_eq]
  unfold lossColumn rowScore rowSum
  simp only [h0, h1, h2]

/-- The printed index maps over the grid: every window's block row is the point's number, its block column `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the column of losses of the arrays as the region finds them. -/
theorem flushed_eq (c : Dev nD) (t : Fin cfg0.N) :
    (dats m 0 c).flushed 3 t
      = ((cfg0.win 3).blk t).view.read (Elt Ideal) (lossColumn (V m c main_arg0) (V m c main_arg1) (V m c main_v0)) := by
  show (cfg0.win 3).cut (grid0.coords t) ((dats m 0 c).after 3 t) = _
  rw [after0_3]
  unfold out0_3
  rw [View.canon_unit_zero hz]
  simp only [View.ld_unit_zero (S := S256x4096) hz, View.ld_unit_zero (S := S256x1) hz]
  obtain ⟨e00, e01, e10, e11, e20, e21, e30, e31⟩ := idx_facts t
  funext y
  obtain ⟨p, u, rfl⟩ : ∃ (p : Fin 256) (u : Fin 1), y = ix2 p u := ⟨y 0, y 1, eq_ix2 y⟩
  show k0_pay1 (k0_pay2 (iblk m c 0 t) (iblk m c 1 t)) (k0_pay3 (iblk m c 2 t)) 1#32 (ix2 p u)
      = lossColumn (V m c main_arg0) (V m c main_arg1) (V m c main_v0) (((cfg0.win 3).blk t).view.emb (ix2 p u))
  refine point_eq (V m c main_arg0) (V m c main_arg1) (V m c main_v0) (iblk m c 0 t) (iblk m c 1 t) (iblk m c 2 t) p u
    (((cfg0.win 3).blk t).view.emb (ix2 p u)) (fun k => ?_) (fun k => ?_) ?_
  · show V m c main_arg0 (((cfg0.win 0).blk t).view.emb (ix2 p k))
        = V m c main_arg0 (ix2 (rowOf (((cfg0.win 3).blk t).view.emb (ix2 p u))) k)
    refine congrArg (V m c main_arg0) (funext fun a => Fin.ext ?_)
    match a with
    | ⟨0, _⟩ =>
      show win0_0.index t (0 : Fin 2) * 256 + 1 * p.val = win0_3.index t (0 : Fin 2) * 256 + 1 * p.val
      rw [e00, e30]
    | ⟨1, _⟩ =>
      show win0_0.index t (1 : Fin 2) * 4096 + 1 * k.val = k.val
      rw [e01]; omega
  · show V m c main_arg1 (((cfg0.win 1).blk t).view.emb (ix2 p k))
        = V m c main_arg1 (ix2 (rowOf (((cfg0.win 3).blk t).view.emb (ix2 p u))) k)
    refine congrArg (V m c main_arg1) (funext fun a => Fin.ext ?_)
    match a with
    | ⟨0, _⟩ =>
      show win0_1.index t (0 : Fin 2) * 256 + 1 * p.val = win0_3.index t (0 : Fin 2) * 256 + 1 * p.val
      rw [e10, e30]
    | ⟨1, _⟩ =>
      show win0_1.index t (1 : Fin 2) * 4096 + 1 * k.val = k.val
      rw [e11]; omega
  · show V m c main_v0 (((cfg0.win 2).blk t).view.emb (ix2 p u)) = V m c main_v0 (((cfg0.win 3).blk t).view.emb (ix2 p u))
    refine congrArg (V m c main_v0) (funext fun a => Fin.ext ?_)
    match a with
    | ⟨0, _⟩ =>
      show win0_2.index t (0 : Fin 2) * 256 + 1 * p.val = win0_3.index t (0 : Fin 2) * 256 + 1 * p.val
      rw [e20, e30]
    | ⟨1, _⟩ =>
      show win0_2.index t (1 : Fin 2) * 1 + 1 * u.val = win0_3.index t (1 : Fin 2) * 1 + 1 * u.val
      rw [e21, e31]

/-- An index of the result column is in point `t`'s block iff each coordinate is in the block's range on its axis. -/
theorem mem_blk (t : Fin cfg0.N) (i : S4096x1.Idx) :
    i ∈ ((cfg0.win 3).blk t).view.set ↔ ∀ a : Fin 2, win0_3.index t a * S256x1.size a ≤ (i a).val
      ∧ (i a).val < win0_3.index t a * S256x1.size a + S256x1.size a := by
  show i ∈ ((View.whole main_v1).slice (win0_3.rect t)).set ↔ _
  rw [View.set_slice_whole, Rect.mem_set_unit]
  exact Iff.rfl

/-- THE RESULT COLUMN after the region: the column of the rows' losses. Row `r` is covered by point `r / 256`. -/
theorem final (c : Dev nD) :
    (dats m 0 c).arrAt 3 cfg0.N = lossColumn (V m c main_arg0) (V m c main_arg1) (V m c main_v0) :=
  (dats m 0 c).arrAt_eq_of_cover 3 (lossColumn (V m c main_arg0) (V m c main_arg1) (V m c main_v0))
    (fun t _ => flushed_eq m c t) (fun i => by
      have hi0 : (i 0).val < 4096 := (i 0).isLt
      have hi1 : (i 1).val < 1 := (i 1).isLt
      have hN : cfg0.N = 16 := N_0
      have ht : (i 0).val / 256 < cfg0.N := by rw [hN]; omega
      refine ⟨⟨(i 0).val / 256, ht⟩, flush0_3 _, ?_⟩
      rw [mem_blk]
      obtain ⟨-, -, -, -, -, -, e30, e31⟩ := idx_facts ⟨(i 0).val / 256, ht⟩
      intro a
      match a with
      | ⟨0, _⟩ =>
        show win0_3.index ⟨(i 0).val / 256, ht⟩ (0 : Fin 2) * 256 ≤ (i 0).val
          ∧ (i 0).val < win0_3.index ⟨(i 0).val / 256, ht⟩ (0 : Fin 2) * 256 + 256
        rw [e30]
        show (i 0).val / 256 * 256 ≤ (i 0).val ∧ (i 0).val < (i 0).val / 256 * 256 + 256
        omega
      | ⟨1, _⟩ =>
        show win0_3.index ⟨(i 0).val / 256, ht⟩ (1 : Fin 2) * 1 ≤ (i 1).val
          ∧ (i 1).val < win0_3.index ⟨(i 0).val / 256, ht⟩ (1 : Fin 2) * 1 + 1
        rw [e31]
        omega)

end Cert.KernelIdeal.Loss

end
-- ==== Proof.KernelMean.lean ====
/-
  THE KERNEL'S RESULT. After the region the program sums the result column from `0` over both its axes and divides by the
  word of `4096.0`. The column holds the rows' losses (the blocks tile it), the label column the region read is the flat
  label array recast row-major (so its entry at `(r, 0)` is the label at `r`), the float arrays are the arguments as
  launched, and a sum over the `4096 × 1` indices is the sum over the rows: the result is the mean loss.
-/
import proofs.«153744_j59545426591916_1_alg».proof.Proof.BlocksLoss
import Idealize.ShloMosaic.Lib.StableHlo.Run

noncomputable section

open scoped BigOperators

namespace Cert.KernelIdeal.Loss

open Cert.KernelIdeal Cert.KernelIdeal.Gen Cert.PearsonLoss Cert.LibKeepdims
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The label column the region finds: the flat label array recast to a column. -/
theorem labels_column (c : Dev nD) :
    (V m c main_v0 : S4096x1.Idx → BitVec 32)
      = shapeCast S4096x1 (m ((c : Thread nD τ).loc main_arg2) : S4096.Idx → BitVec 32) shapeCasts_S4096_S4096x1 := by
  dsimp only [V, V0]
  simp only [hostOps0, List.flatten_cons, List.flatten_nil, List.append_nil, List.cons_append, List.nil_append]
  after_results
  rfl

/-- The program's result after the lines that follow the region: the result column summed from `0`, over `4096.0`. -/
theorem tail_eq (c : Dev nD) :
    Pipeline.afterTail₀ cfgs (dats m) 0 (V0 m) [hostOps1] c main_v3
      = Host.divf (F := Ideal)
          (Host.reduceAdd (F := Ideal) ((dats m 0 c).arrAt 3 cfg0.N : S4096x1.Idx → EReal)
            (constant (F := Ideal) S_ .f32 0x00000000#32) reducesTo_S4096x1_S_d0_1 h_S_)
          (constant (F := Ideal) S_ .f32 0x45800000#32) := by
  unfold Pipeline.afterTail₀
  show StableHlo.after hostOps1 _ (Proc.devRef .tc main_v3) = _
  after_results
  have h : Pipeline.withArrays (cfgs 0).spec c (V0 m c) (fun w => (dats m 0 c).arrAt w (cfgs 0).N) (Proc.devRef .tc main_v1)
      = (dats m 0 c).arrAt 3 cfg0.N :=
    Pipeline.withArrays_arr spec0 launch0.win.arr_inj c (V0 m c) (fun w => (dats m 0 c).arrAt w cfg0.N) 3
  rw [h]

/-- A host sum of a column from the zero word over both its axes: the sum over the rows, each read at the one column. -/
theorem total_sum (G : FVec Ideal S4096x1 .f32) (i : S_.Idx) :
    Host.reduceAdd (F := Ideal) G (constant (F := Ideal) S_ .f32 0x00000000#32) reducesTo_S4096x1_S_d0_1 h_S_ i
      = Ideal.ofBits .f32 0x00000000#32 + ∑ r : Fin 4096, G (ix2 r (0 : Fin 1)) := by
  simp only [Host.reduceAdd, Ideal.hostReduceAdd_def]
  rw [Ideal.hostReduceAdd_total reducesTo_S4096x1_S_d0_1 (fun b => b.elim0) G _ i, sum_idx_column]
  rfl

/-- The mean of the column of losses, its labels the flat labels recast to a column, is the mean loss. -/
theorem mean_of_column (X Y : S4096x4096.Idx → EReal) (L : S4096.Idx → BitVec 32) (i : S_.Idx) :
    Host.divf (F := Ideal)
        (Host.reduceAdd (F := Ideal) (lossColumn X Y (shapeCast S4096x1 L shapeCasts_S4096_S4096x1))
          (constant (F := Ideal) S_ .f32 0x00000000#32) reducesTo_S4096x1_S_d0_1 h_S_)
        (constant (F := Ideal) S_ .f32 0x45800000#32) i
      = meanLoss X Y L := by
  show Ideal.div (Host.reduceAdd (F := Ideal) (lossColumn X Y (shapeCast S4096x1 L shapeCasts_S4096_S4096x1))
      (constant (F := Ideal) S_ .f32 0x00000000#32) reducesTo_S4096x1_S_d0_1 h_S_ i) (Ideal.ofBits .f32 0x45800000#32) = _
  rw [total_sum]
  unfold meanLoss
  refine congrArg (fun z => Ideal.div (Ideal.ofBits .f32 0x00000000#32 + z) (Ideal.ofBits .f32 0x45800000#32)) ?_
  refine Finset.sum_congr rfl fun r _ => ?_
  show hinge (rowScore X Y r) (shapeCast S4096x1 L shapeCasts_S4096_S4096x1 (ix2 r (0 : Fin 1)))
      = hinge (rowScore X Y r) (L (ix1 r))
  rw [shapeCast_a_a1_apply]

/-- THE KERNEL'S RESULT is the mean loss of the arguments as launched. -/
theorem kernel_mean (c : Dev nD) (i : S_.Idx) :
    Pipeline.afterTail₀ cfgs (dats m) 0 (V0 m) [hostOps1] c main_v3 i
      = meanLoss (m ((c : Thread nD τ).loc main_arg0)) (m ((c : Thread nD τ).loc main_arg1))
          (m ((c : Thread nD τ).loc main_arg2)) := by
  rw [tail_eq, final, V_main_arg0, V_main_arg1, labels_column]
  exact mean_of_column _ _ _ i

/-- THE KERNEL'S RUN, read: every weakly fair execution terminates with the result at the mean loss of the arguments as
    launched (the lines after the region leave it there) and the three arguments unchanged (the two float arrays are
    staged and never written back; no line writes the labels). -/
theorem run : θ_run defs (onTc (τ := τ) (main (F := Ideal))) ⟨m, fun _ => 0, ρ⟩ (fun r => ∀ c : Dev nD,
      r.2.mem ((c.tc : Thread nD τ).loc main_v3)
        = (fun _ => meanLoss (m ((c : Thread nD τ).loc main_arg0)) (m ((c : Thread nD τ).loc main_arg1))
            (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans
        (funext fun i => kernel_mean m c i),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans
        (W_main_arg2 m (dats m) c)⟩)
    (run_main m ρ)

end Cert.KernelIdeal.Loss

end
-- ==== Proof.lean ====
/-
  Both programs compute the mean over `4096` rows of a loss of Pearson's correlation of two rows of `4096` numbers
  (Proof/PearsonLossSpec.lean states the function, `meanLoss`). The kernel does the five row sums and the pointwise
  formula on blocks of `256` rows, one block per grid point, into a column of `4096` losses, and the program then takes
  the column's mean; the reference does the same operations, in the same order and with the same constants, on the whole
  arrays. At the ideal instance a sum is a sum whatever its grouping, a block of rows is those rows, and every other
  operation is one exact function on both sides, so the two results are one extended real: no algebraic law beyond
  re-indexing the sums is used, and the finiteness of the inputs is never needed.
    • Proof/ReferenceLoss.lean — the reference's result is `meanLoss` of its arguments;
    • Proof/BodyLoss.lean — what the kernel's body stores at a row is the loss of that row of its blocks;
    • Proof/BlocksLoss.lean — so the result column ends holding the rows' losses;
    • Proof/KernelMean.lean — so the program's result is `meanLoss` of its arguments.
  The three frames: the two kernels' are their generated frame certificates, the reference's its generated run with the
  result dropped. The idealization rewrote nothing, so there is nothing to preserve.
-/
import proofs.«153744_j59545426591916_1_alg».proof.Defs
import proofs.«153744_j59545426591916_1_alg».proof.Proof.Gen.Kernel
import proofs.«153744_j59545426591916_1_alg».proof.Proof.Gen.Kernel.Skeleton
import proofs.«153744_j59545426591916_1_alg».proof.Proof.Gen.Kernel.Launch
import proofs.«153744_j59545426591916_1_alg».proof.Proof.Gen.Kernel.Points
import proofs.«153744_j59545426591916_1_alg».proof.Proof.Gen.Kernel.Frame
import proofs.«153744_j59545426591916_1_alg».proof.Proof.Gen.KernelIdeal
import proofs.«153744_j59545426591916_1_alg».proof.Proof.Gen.KernelIdeal.Skeleton
import proofs.«153744_j59545426591916_1_alg».proof.Proof.Gen.KernelIdeal.Launch
import proofs.«153744_j59545426591916_1_alg».proof.Proof.Gen.KernelIdeal.Points
import proofs.«153744_j59545426591916_1_alg».proof.Proof.Gen.KernelIdeal.Frame
import proofs.«153744_j59545426591916_1_alg».proof.Proof.Gen.ReferenceIdeal
import proofs.«153744_j59545426591916_1_alg».proof.Proof.Gen.Pre_finite_inputs
import proofs.«153744_j59545426591916_1_alg».proof.Proof.Gen.ReferenceIdeal.Run
import proofs.«153744_j59545426591916_1_alg».proof.Proof.Gen.ReferenceIdeal.Read
import proofs.«153744_j59545426591916_1_alg».proof.Proof.ReferenceLoss
import proofs.«153744_j59545426591916_1_alg».proof.Proof.KernelMean
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the mean loss of those arguments. -/
theorem algebraic : Cert.algebraic_KernelIdeal_ReferenceIdeal := by
  intro m ρ m' ρ' _ hagree
  refine ⟨fun c => fun _ => Cert.PearsonLoss.meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2.1, (hagree c).2.2]
  exact funext fun i => Cert.ReferenceIdeal.Loss.mean_eq _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
